-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S1024x64 .f32) (main_arg6 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x2048x1024 .f32) (main_arg1 : FVec F S1024x64 .f32) (main_arg2 : FVec F S64 .f32) (main_arg3 : FVec F S1024x64 .f32) (main_arg4 : FVec F S64 .f32) (main_arg5 : FVec F S1024x64 .f32) (main_arg6 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_v13 main_v16
-- ==== Kernel.lean ====
abbrev S4x2048x1024 : Shape := ⟨3, ![4, 2048, 1024]⟩
abbrev S1024x64 : Shape := ⟨2, ![1024, 64]⟩
abbrev S64 : Shape := ⟨1, ![64]⟩
abbrev S4x2048x64 : Shape := ⟨3, ![4, 2048, 64]⟩
abbrev S1x2048x1024 : Shape := ⟨3, ![1, 2048, 1024]⟩
abbrev S1x512x64 : Shape := ⟨3, ![1, 512, 64]⟩
abbrev S2048x64 : Shape := ⟨2, ![2048, 64]⟩
abbrev S2048x1024 : Shape := ⟨2, ![2048, 1024]⟩
abbrev S1x64 : Shape := ⟨2, ![1, 64]⟩
abbrev S1x512x1024 : Shape := ⟨3, ![1, 512, 1024]⟩
abbrev S512x1024 : Shape := ⟨2, ![512, 1024]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S4x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S64, .f32⟩
  | .local _ .vmem, ⟨4, _⟩ => ⟨S1024x64, .f32⟩
  | .local _ .vmem, ⟨5, _⟩ => ⟨S64, .f32⟩
  | .local _ .vmem, ⟨6, _⟩ => ⟨S1024x64, .f32⟩
  | .local _ .vmem, ⟨7, _⟩ => ⟨S64, .f32⟩
  | .local _ .vmem, ⟨8, _⟩ => ⟨S1x512x64, .f32⟩
  | .local _ .vmem, ⟨9, _⟩ => ⟨S1x512x64, .f32⟩
  | .local _ .vmem, ⟨10, _⟩ => ⟨S2048x64, .f32⟩
  | .local _ .vmem, ⟨11, _⟩ => ⟨S2048x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1x512x1024 : 0 < S1x512x1024.numel
  shapeCasts_S1x512x1024_S512x1024 : S1x512x1024.ShapeCasts S512x1024
  broadcasts_S1x64_S512x64 : S1x64.Broadcasts S512x64
  transposes_S2048x64_p1_0_S64x2048 : S2048x64.Transposes [1, 0] S64x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x1024_S1024x64_S2048x64_1_0_0_1_n_n_wf : DotDims.WF S2048x1024 S1024x64 S2048x64 [1] [0] [0] [1] [] []
  dot_S512x1024_S1024x64_S512x64_1_0_0_1_n_n_wf : DotDims.WF S512x1024 S1024x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S4x2048x64.size a
  hwx0_7 : ∀ i : grid0.Coords, EltTy.bits .f32 = 32 ∨ (Rect.block (s := S4x2048x64) S1x512x64.size (cc0_transform_7 i) (hinb0_7 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S64 : Shape := ⟨1, ![64]⟩
abbrev S4x2048x64 : Shape := ⟨3, ![4, 2048, 64]⟩
abbrev S1x1x64 : Shape := ⟨3, ![1, 1, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S64, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S4x2048x64, .f32⟩
  | .hbm, ⟨8, _⟩ => ⟨S1x1x64, .f32⟩
  | .hbm, ⟨9, _⟩ => ⟨S4x2048x64, .f32⟩
  | .hbm, ⟨10, _⟩ => ⟨S4x2048x64, .f32⟩
  | .hbm, ⟨11, _⟩ => ⟨S4x2048x64, .f32⟩
  | .hbm, ⟨12, _⟩ => ⟨S1x1x64, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S1x1x64, .f32⟩
  | .hbm, ⟨17, _⟩ => ⟨S4x2048x64, .f32⟩
  | .hbm, ⟨18, _⟩ => ⟨S4x2048x64, .f32⟩
  | .hbm, ⟨19, _⟩ => ⟨S4x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S4x2048x2048, .i1⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S_, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S_, .f32⟩
  | .hbm, ⟨43, _⟩ => ⟨S4x2048, .f32⟩
  | .hbm, ⟨44, _⟩ => ⟨S4x2048, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.Spec.lean ====
/-
  Causal single-head attention over the extended reals, as ONE function of the seven argument arrays.

  For a batch row `xr : Fin 2048 → Fin 1024 → EReal` (the 2048 positions of one batch element, 1024 features each):
    * `proj xr W b s h`   = Σ_d xr s d · W[d,h] + b[h]               (a linear projection of position `s`),
    * `score … s k`       = (Σ_h q[s,h] · k[k,h]) · (1/8) when k ≤ s, and −∞ when k > s   (the causal mask),
    * `rowMax … s`        = sup_k score s k,
    * `weight … s k`      = exp (score s k − rowMax s),   `denom … s` = Σ_k weight s k,
    * `attnRow … s h`     = Σ_k (weight s k / denom s) · v[k,h].
  `G` reads a batch element's row out of the whole input and applies `attnRow`.

  The two programs differ in where the factor 1/8 = 1/sqrt 64 sits: one scales every entry of q before the
  contraction over h, the other divides the contracted score by sqrt 64.  Multiplication by a nonnegative finite
  extended real goes through finite sums whatever the summands are (infinite or not), so the two agree with no
  finiteness assumption: `sum_scaled`, `div_sqrt64`.
-/
import Idealize.ShloMosaic.PureOps.Ideal
import Idealize.ShloMosaic.Lib.ValueIdx
import proofs.«139778_j2791728742648_2_alg».proof.Proof.LibSumMulNonneg
import proofs.«139778_j2791728742648_2_alg».proof.Proof.LibRowMax

noncomputable section

open scoped BigOperators

namespace Cert.Attn

open Idealize.ShloMosaic Idealize.ShloMosaic.ValueIdx

abbrev SX : Shape := ⟨3, ![4, 2048, 1024]⟩
abbrev SW : Shape := ⟨2, ![1024, 64]⟩
abbrev SB : Shape := ⟨1, ![64]⟩
abbrev SO : Shape := ⟨3, ![4, 2048, 64]⟩

/-- The softmax scale 1/8 = 1/sqrt 64. -/
def scale : EReal := ((1 / 8 : ℝ) : EReal)

/-- Position `s` of a batch row projected on column `h` of a weight matrix, plus the bias. -/
def proj (xr : Fin 2048 → Fin 1024 → EReal) (W : SW.Idx → EReal) (b : SB.Idx → EReal) (s : Fin 2048) (h : Fin 64) : EReal :=
  (∑ d : Fin 1024, xr s d * W (ix2 d h)) + b (ix1 h)

/-- The scaled, causally masked score of query position `s` against key position `k`. -/
def score (xr : Fin 2048 → Fin 1024 → EReal) (Wq : SW.Idx → EReal) (bq : SB.Idx → EReal) (Wk : SW.Idx → EReal)
    (bk : SB.Idx → EReal) (s k : Fin 2048) : EReal :=
  if k.val ≤ s.val then (∑ h : Fin 64, proj xr Wq bq s h * proj xr Wk bk k h) * scale else ⊥

/-- The largest score of a query position. -/
def rowMax (xr : Fin 2048 → Fin 1024 → EReal) (Wq : SW.Idx → EReal) (bq : SB.Idx → EReal) (Wk : SW.Idx → EReal)
    (bk : SB.Idx → EReal) (s : Fin 2048) : EReal :=
  Finset.univ.sup fun k : Fin 2048 => score xr Wq bq Wk bk s k

/-- The unnormalised softmax weight. -/
def weight (xr : Fin 2048 → Fin 1024 → EReal) (Wq : SW.Idx → EReal) (bq : SB.Idx → EReal) (Wk : SW.Idx → EReal)
    (bk : SB.Idx → EReal) (s k : Fin 2048) : EReal :=
  Ideal.exp (score xr Wq bq Wk bk s k - rowMax xr Wq bq Wk bk s)

/-- The softmax normaliser of a query position. -/
def denom (xr : Fin 2048 → Fin 1024 → EReal) (Wq : SW.Idx → EReal) (bq : SB.Idx → EReal) (Wk : SW.Idx → EReal)
    (bk : SB.Idx → EReal) (s : Fin 2048) : EReal :=
  ∑ k : Fin 2048, weight xr Wq bq Wk bk s k

/-- The attention output of query position `s`, column `h`. -/
def attnRow (xr : Fin 2048 → Fin 1024 → EReal) (Wq : SW.Idx → EReal) (bq : SB.Idx → EReal) (Wk : SW.Idx → EReal)
    (bk : SB.Idx → EReal) (Wv : SW.Idx → EReal) (bv : SB.Idx → EReal) (s : Fin 2048) (h : Fin 64) : EReal :=
  ∑ k : Fin 2048, Ideal.div (weight xr Wq bq Wk bk s k) (denom xr Wq bq Wk bk s) * proj xr Wv bv k h

/-- The whole result: batch element `i 0`, position `i 1`, column `i 2`. -/
def G (X : SX.Idx → EReal) (Wq : SW.Idx → EReal) (bq : SB.Idx → EReal) (Wk : SW.Idx → EReal) (bk : SB.Idx → EReal)
    (Wv : SW.Idx → EReal) (bv : SB.Idx → EReal) : SO.Idx → EReal := fun i =>
  attnRow (fun s d => X (ix3 (i 0) s d)) Wq bq Wk bk Wv bv (i 1) (i 2)

/-- Row `r` of the `q`-th tile of 512 query positions. -/
def rowOf (q : Fin 4) (r : Fin 512) : Fin 2048 := ⟨q.val * 512 + r.val, by have := q.isLt; have := r.isLt; omega⟩

theorem scale_nonneg : (0 : EReal) ≤ scale := by
  unfold scale; exact_mod_cast (by norm_num : (0 : ℝ) ≤ 1 / 8)

theorem scale_ne_top : scale ≠ ⊤ := EReal.coe_ne_top _

/-- The f32 word 0x3E000000 is 1/8. -/
theorem ofBits_eighth : Ideal.ofBits .f32 0x3E000000#32 = scale := by
  simp [Ideal.ofBits, Ideal.ieee, scale]
  norm_num
  exact_mod_cast (by norm_num : (8388608 : ℝ) * (1 / 67108864) = 1 / 8)

/-- Scaling every entry of one factor before a contraction is scaling the contraction. -/
theorem sum_scaled {ι : Type*} [Fintype ι] (a b : ι → EReal) :
    ∑ h, (a h * scale) * b h = (∑ h, a h * b h) * scale := by
  rw [← Cert.LibSumMulNonneg.univ_sum_mul_of_nonneg_of_ne_top scale_nonneg scale_ne_top]
  exact Finset.sum_congr rfl fun h _ => by rw [mul_assoc, mul_comm scale, ← mul_assoc]

/-- Division by sqrt 64 is multiplication by 1/8, on every extended real. -/
theorem div_sqrt64 (x : EReal) : Ideal.div x (Ideal.sqrt (Ideal.ofBits .f32 0x42800000#32)) = x * scale := by
  have h64 : Ideal.ofBits .f32 0x42800000#32 = ((64 : ℝ) : EReal) := by
    simp [Ideal.ofBits, Ideal.ieee]
    norm_num
    exact_mod_cast (by norm_num : (8388608 : ℝ) * (1 / 131072) = 64)
  have hs : Real.sqrt 64 = 8 := by
    rw [show (64 : ℝ) = 8 ^ 2 by norm_num, Real.sqrt_sq (by norm_num)]
  rw [h64, Ideal.sqrt_coe, if_neg (by norm_num), hs, Ideal.div_coe (by norm_num)]
  rfl

end Cert.Attn

end
-- ==== Proof.Pieces.lean ====
import proofs.«139778_j2791728742648_2_alg».proof.Defs
import proofs.«139778_j2791728742648_2_alg».proof.Proof.Gen.KernelIdeal.Frame
import proofs.«139778_j2791728742648_2_alg».proof.Proof.Gen.KernelIdeal.Value
import proofs.«139778_j2791728742648_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

/-! ## What one run of the body leaves behind

The body at a grid point (batch element, query tile) stores three things through whole-buffer rectangles: at the
first tile of a batch element the key and value projections of the whole batch row into the two carried scratch
buffers, and at every tile the attention output of its 512 query rows into the output block.  Each stored value is
the body's arithmetic (the skeleton's payload terms) applied to the contents of the buffers it loads; this module
reads the stored values back as those payload terms.  The query tile is a 512-row slab of the batch row, loaded
through a rectangle whose row offset is 512 times the tile number. -/

namespace Cert.Attn.Pieces
open Cert.KernelIdeal Cert.KernelIdeal.Gen Idealize.ShloMosaic.ValueIdx
variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The 512 query rows of tile `i 1`, cut out of the batch row. -/
def tile (i : grid0.Coords) (x0 : Vec F S1x2048x1024 .f32) : Vec F S1x512x1024 .f32 :=
  View.ld x0 (Rect.unit (s := S1x2048x1024) (k0_off1 i) S1x512x1024.size (Facts₀.k0_off1_inb i))

/-- At a later tile of a batch element the output block is the attention of the tile's rows against the cached
    keys and values. -/
theorem out_B (c : Dev nD) (i : grid0.Coords) (a2 : Memref sig .tc .vmem S1x2048x1024 .f32) (h2 : a2.IsWhole) (a3 : Memref sig .tc .vmem S1024x64 .f32) (h3 : a3.IsWhole) (a4 : Memref sig .tc .vmem S64 .f32) (h4 : a4.IsWhole) (a5 : Memref sig .tc .vmem S1024x64 .f32) (h5 : a5.IsWhole) (a6 : Memref sig .tc .vmem S64 .f32) (h6 : a6.IsWhole) (a7 : Memref sig .tc .vmem S1024x64 .f32) (h7 : a7.IsWhole) (a8 : Memref sig .tc .vmem S64 .f32) (h8 : a8.IsWhole) (a9 : Memref sig .tc .vmem S1x512x64 .f32) (h9 : a9.IsWhole) (a10 : Memref sig .tc .vmem S2048x64 .f32) (h10 : a10.IsWhole) (a11 : Memref sig .tc .vmem S2048x64 .f32) (h11 : a11.IsWhole) (hc : ¬cond0_0 i) (x0 : Vec F S1x2048x1024 .f32) (x1 : Vec F S1024x64 .f32) (x2 : Vec F S64 .f32) (x3 : Vec F S1024x64 .f32) (x4 : Vec F S64 .f32) (x5 : Vec F S1024x64 .f32) (x6 : Vec F S64 .f32) (xs0 xs1 : Vec F S2048x64 .f32) :
    out0_B_7 c i a2 h2 a3 h3 a4 h4 a5 h5 a6 h6 a7 h7 a8 h8 a9 h9 a10 h10 a11 h11 hc x0 x1 x2 x3 x4 x5 x6 xs0 xs1 = k0_pay1 (k0_pay5 i (tile i x0) x1 x2 xs0) xs1 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 xs0 xs1)]
  unfold kernelRun0_B
  dsimp only
  sl_unfold_words
  rw [View.canon_unit_zero hz3]
  simp only [View.readAt_eq_ld, h2.read_unread, h3.read_unread, h4.read_unread, h10.read_unread, h11.read_unread, View.ld_unit_zero (S := S2048x64) hz2, View.ld_unit_zero (S := S1024x64) hz2, View.ld_unit_zero (S := S64) hz1]
  rfl

/-- At the first tile of a batch element the key cache is stored: the key projection of the batch row. -/
theorem keys_A (c : Dev nD) (i : grid0.Coords) (a2 : Memref sig .tc .vmem S1x2048x1024 .f32) (h2 : a2.IsWhole) (a3 : Memref sig .tc .vmem S1024x64 .f32) (h3 : a3.IsWhole) (a4 : Memref sig .tc .vmem S64 .f32) (h4 : a4.IsWhole) (a5 : Memref sig .tc .vmem S1024x64 .f32) (h5 : a5.IsWhole) (a6 : Memref sig .tc .vmem S64 .f32) (h6 : a6.IsWhole) (a7 : Memref sig .tc .vmem S1024x64 .f32) (h7 : a7.IsWhole) (a8 : Memref sig .tc .vmem S64 .f32) (h8 : a8.IsWhole) (a9 : Memref sig .tc .vmem S1x512x64 .f32) (h9 : a9.IsWhole) (a10 : Memref sig .tc .vmem S2048x64 .f32) (h10 : a10.IsWhole) (a11 : Memref sig .tc .vmem S2048x64 .f32) (h11 : a11.IsWhole) (hc : cond0_0 i) (x0 : Vec F S1x2048x1024 .f32) (x1 : Vec F S1024x64 .f32) (x2 : Vec F S64 .f32) (x3 : Vec F S1024x64 .f32) (x4 : Vec F S64 .f32) (x5 : Vec F S1024x64 .f32) (x6 : Vec F S64 .f32) :
    sout0_A_0 c i a2 h2 a3 h3 a4 h4 a5 h5 a6 h6 a7 h7 a8 h8 a9 h9 a10 h10 a11 h11 hc x0 x1 x2 x3 x4 x5 x6 = k0_pay3 x0 x3 x4 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h5.read_unread, h6.read_unread, View.ld_unit_zero (S := S1x2048x1024) hz3, View.ld_unit_zero (S := S1024x64) hz2, View.ld_unit_zero (S := S64) hz1]

/-- … and the value cache: the value projection of the batch row. -/
theorem values_A (c : Dev nD) (i : grid0.Coords) (a2 : Memref sig .tc .vmem S1x2048x1024 .f32) (h2 : a2.IsWhole) (a3 : Memref sig .tc .vmem S1024x64 .f32) (h3 : a3.IsWhole) (a4 : Memref sig .tc .vmem S64 .f32) (h4 : a4.IsWhole) (a5 : Memref sig .tc .vmem S1024x64 .f32) (h5 : a5.IsWhole) (a6 : Memref sig .tc .vmem S64 .f32) (h6 : a6.IsWhole) (a7 : Memref sig .tc .vmem S1024x64 .f32) (h7 : a7.IsWhole) (a8 : Memref sig .tc .vmem S64 .f32) (h8 : a8.IsWhole) (a9 : Memref sig .tc .vmem S1x512x64 .f32) (h9 : a9.IsWhole) (a10 : Memref sig .tc .vmem S2048x64 .f32) (h10 : a10.IsWhole) (a11 : Memref sig .tc .vmem S2048x64 .f32) (h11 : a11.IsWhole) (hc : cond0_0 i) (x0 : Vec F S1x2048x1024 .f32) (x1 : Vec F S1024x64 .f32) (x2 : Vec F S64 .f32) (x3 : Vec F S1024x64 .f32) (x4 : Vec F S64 .f32) (x5 : Vec F S1024x64 .f32) (x6 : Vec F S64 .f32) :
    sout0_A_1 c i a2 h2 a3 h3 a4 h4 a5 h5 a6 h6 a7 h7 a8 h8 a9 h9 a10 h10 a11 h11 hc x0 x1 x2 x3 x4 x5 x6 = k0_pay4 x0 x5 x6 := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h7.read_unread, h8.read_unread, View.ld_unit_zero (S := S1x2048x1024) hz3, View.ld_unit_zero (S := S1024x64) hz2, View.ld_unit_zero (S := S64) hz1]

/-- At the first tile the output block is the attention of the tile's rows against the caches just stored. -/
theorem out_A (c : Dev nD) (i : grid0.Coords) (a2 : Memref sig .tc .vmem S1x2048x1024 .f32) (h2 : a2.IsWhole) (a3 : Memref sig .tc .vmem S1024x64 .f32) (h3 : a3.IsWhole) (a4 : Memref sig .tc .vmem S64 .f32) (h4 : a4.IsWhole) (a5 : Memref sig .tc .vmem S1024x64 .f32) (h5 : a5.IsWhole) (a6 : Memref sig .tc .vmem S64 .f32) (h6 : a6.IsWhole) (a7 : Memref sig .tc .vmem S1024x64 .f32) (h7 : a7.IsWhole) (a8 : Memref sig .tc .vmem S64 .f32) (h8 : a8.IsWhole) (a9 : Memref sig .tc .vmem S1x512x64 .f32) (h9 : a9.IsWhole) (a10 : Memref sig .tc .vmem S2048x64 .f32) (h10 : a10.IsWhole) (a11 : Memref sig .tc .vmem S2048x64 .f32) (h11 : a11.IsWhole) (hc : cond0_0 i) (x0 : Vec F S1x2048x1024 .f32) (x1 : Vec F S1024x64 .f32) (x2 : Vec F S64 .f32) (x3 : Vec F S1024x64 .f32) (x4 : Vec F S64 .f32) (x5 : Vec F S1024x64 .f32) (x6 : Vec F S64 .f32) :
    out0_A_7 c i a2 h2 a3 h3 a4 h4 a5 h5 a6 h6 a7 h7 a8 h8 a9 h9 a10 h10 a11 h11 hc x0 x1 x2 x3 x4 x5 x6
      = k0_pay1 (k0_pay5 i (tile i x0) x1 x2 (k0_pay3 x0 x3 x4)) (k0_pay4 x0 x5 x6) := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread, h7.read_unread, h8.read_unread, View.ld_unit_zero (S := S1x2048x1024) hz3, View.ld_unit_zero (S := S1024x64) hz2, View.ld_unit_zero (S := S64) hz1]
  rw [View.readCov_unit_zero (S := S2048x64) _ hz2, View.readCov_unit_zero (S := S2048x64) _ hz2]
  rfl

/-- Tile `q`'s row offset, as the body computes it in 32-bit arithmetic, is `512 q`. -/
theorem tile_offset (n : ℕ) (hn : n < 4) :
    (Scalar.indexCast (Scalar.muli (BitVec.ofNat 32 n) 512#32)).toNat = n * 512 := by
  interval_cases n <;> rfl

/-- Row `r` of tile `q` is row `512 q + r` of the batch row. -/
theorem tile_read (i : grid0.Coords) (q : Fin 4) (hq : (i 1).val = q.val) (x0 : Vec F S1x2048x1024 .f32)
    (r : Fin 512) (d : Fin 1024) :
    tile i x0 (ix3 0 r d) = x0 (ix3 0 (Cert.Attn.rowOf q r) d) := by
  show x0 ((Rect.unit (s := S1x2048x1024) (k0_off1 i) S1x512x1024.size (Facts₀.k0_off1_inb i)).emb (ix3 0 r d)) = _
  refine congrArg x0 (funext fun a => Fin.ext ?_)
  rw [Rect.emb_apply]
  match a with
  | ⟨0, _⟩ => rfl
  | ⟨1, _⟩ =>
    show (Scalar.indexCast (Scalar.muli (BitVec.ofNat 32 (i 1).val) 512#32)).toNat + 1 * r.val = q.val * 512 + r.val
    rw [hq, tile_offset q.val q.isLt, Nat.one_mul]
  | ⟨2, _⟩ => show 0 + 1 * d.val = d.val; omega

end Cert.Attn.Pieces
end
-- ==== Proof.TileLayout.lean ====
/-
  Small facts about arrays read at an index, for any extents, over the extended reals where arithmetic is involved:

    * a product of an `[M, K]` array with a `[K, N]` array into the zero accumulator is, at `(p, q)`, the sum over the
      contraction coordinate `k` of the entries `(p, k)` and `(k, q)` multiplied;
    * the keepdims forms of a row reduction: an `[a]` vector viewed as a column `[a, 1]` and that column repeated along
      `b` columns reads, at `(i, k)`, the vector at `i`;
    * a bias vector `[b]` viewed as a row `[1, b]` and repeated down `a` rows reads, at `(p, c)`, the vector at `c`;
    * the sum of an `[a, b]` array along its second axis, started from zero, is at row `i` the sum over the columns.
-/
import Idealize.ShloMosaic.Lib.ValueLayout
import Idealize.ShloMosaic.PureOps.Ideal.Laws

noncomputable section

open scoped BigOperators

namespace Cert.Attn.Tile

open Idealize.ShloMosaic Idealize.ShloMosaic.ValueIdx

/-! ## A plain matrix product at an entry -/

/-- The product of an `[M, K]` by a `[K, N]` array accumulated into zero: entry `(p, q)` is the sum over `k` of the
    products of the entries `(p, k)` and `(k, q)`. -/
theorem plain_matmul_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- The same for any dimension record that is the plain one. -/
theorem matmul_apply_of_plain {M K N : ℕ} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant ⟨2, ![M, N]⟩ .f32 0x00000000#32) (ix2 p q)
      = ∑ k : Fin K, lhs (ix2 p k) * rhs (ix2 k q) := by
  subst hD
  exact plain_matmul_apply prec lhs rhs p q

/-! ## The keepdims forms -/

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- A vector viewed as a column and repeated along the columns: at `(i, k)` the vector at `i`. -/
theorem column_keepdims_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (k : Fin b) :
    broadcastTo ⟨2, ![a, b]⟩ (shapeCast ⟨2, ![a, 1]⟩ x hc) hb (ix2 i k) = x (ix1 i) :=
  (broadcastTo_a1_ab_apply _ hb i k).trans (shapeCast_a_a1_apply x hc i 0)

/-- A vector viewed as a row and repeated down the rows: at `(p, c)` the vector at `c`. -/
theorem row_keepdims_apply {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-! ## A row sum -/

/-- Over the extended reals, the sum of an `[a, b]` array along its second axis, started from the zero word, is at row
    `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  show ∑ k : Fin b, src (h.lift (ix1 i) k) = _
  refine Finset.sum_congr rfl fun k _ => congrArg src (funext fun ax => Fin.ext (by
    match ax with
    | ⟨0, _⟩ => rfl
    | ⟨1, _⟩ => rfl))

end Cert.Attn.Tile

end
-- ==== Proof.TileProj.lean ====
/-
  The linear projections of the kernel, read at an entry.

  Each is a block of positions `[1, n, 1024]` viewed as a matrix `[n, 1024]`, multiplied by a weight matrix
  `[1024, 64]` into the zero accumulator, plus the bias `[64]` repeated down the rows.  (The changes of format to
  bf16 before the product are the identity on the extended reals.)  At `(r, h)` that is
  `Σ_d x[0, r, d] · W[d, h] + b[h]`: the specification's `proj` of the block's rows.

  `proj_block_apply` states it for a block of any number `n` of positions: `n = 2048` for the two arrays the kernel
  keeps for a batch element, `n = 512` for the queries of a tile.
-/
import proofs.«139778_j2791728742648_2_alg».proof.Proof.Gen.KernelIdeal.Skeleton
import proofs.«139778_j2791728742648_2_alg».proof.Proof.Spec
import proofs.«139778_j2791728742648_2_alg».proof.Proof.TileLayout

noncomputable section

open scoped BigOperators

namespace Cert.Attn.Tile

open Cert.KernelIdeal Cert.KernelIdeal.Gen Idealize.ShloMosaic Idealize.ShloMosaic.ValueIdx

/-- The dimension records of the kernel's four products are the plain ones. -/
theorem dot_kv_eq : dot_S2048x1024_S1024x64_S2048x64_1_0_0_1_n_n = DotDims.plain 2048 1024 64 := rfl
theorem dot_q_eq : dot_S512x1024_S1024x64_S512x64_1_0_0_1_n_n = DotDims.plain 512 1024 64 := rfl
theorem dot_qk_eq : dot_S512x64_S64x2048_S512x2048_1_0_0_1_n_n = DotDims.plain 512 64 2048 := rfl
theorem dot_pv_eq : dot_S512x2048_S2048x64_S512x64_1_0_0_1_n_n = DotDims.plain 512 2048 64 := rfl

/-- A block of `n` positions projected: the product with the weights plus the bias row, at `(r, h)`. -/
theorem proj_block_apply {n : ℕ} (D : DotDims ⟨2, ![n, 1024]⟩ ⟨2, ![1024, 64]⟩ ⟨2, ![n, 64]⟩)
    (hD : D = DotDims.plain n 1024 64)
    (xb : FVec Ideal ⟨3, ![1, n, 1024]⟩ .f32) (W : FVec Ideal ⟨2, ![1024, 64]⟩ .f32) (b : FVec Ideal ⟨1, ![64]⟩ .f32)
    (hc : (⟨3, ![1, n, 1024]⟩ : Shape).ShapeCasts ⟨2, ![n, 1024]⟩)
    (hcb : (⟨1, ![64]⟩ : Shape).ShapeCasts ⟨2, ![1, 64]⟩) (hb : (⟨2, ![1, 64]⟩ : Shape).Broadcasts ⟨2, ![n, 64]⟩)
    (hlt : FTy.bits .bf16 < FTy.bits .f32) (r : Fin n) (h : Fin 64) :
    addf (matmul D none
          (truncf .bf16 (shapeCast ⟨2, ![n, 1024]⟩ xb hc : FVec Ideal ⟨2, ![n, 1024]⟩ .f32) hlt : FVec Ideal ⟨2, ![n, 1024]⟩ .bf16)
          (truncf .bf16 W hlt : FVec Ideal ⟨2, ![1024, 64]⟩ .bf16)
          (constant (F := Ideal) ⟨2, ![n, 64]⟩ .f32 0x00000000#32))
        (broadcastTo ⟨2, ![n, 64]⟩ (shapeCast ⟨2, ![1, 64]⟩ b hcb : FVec Ideal ⟨2, ![1, 64]⟩ .f32) hb) (ix2 r h)
      = (∑ d : Fin 1024, xb (ix3 (0 : Fin 1) r d) * W (ix2 d h)) + b (ix1 h) := by
  rw [addf_apply, row_keepdims_apply]
  unfold matmul
  rw [matmul_apply_of_plain D hD]
  refine congrArg (· + b (ix1 h)) (Finset.sum_congr rfl fun d _ => ?_)
  rw [truncf_apply, truncf_apply, shapeCast_1ab_ab_apply]

end Cert.Attn.Tile

end
-- ==== Proof.TileMask.lean ====
/-
  The causal mask's bit as 32-bit integer arithmetic.

  A query tile `n < 4` starts at position `n · 512`; row `r < 512` of the tile is position `n · 512 + r`, and the kernel
  compares it, as signed 32-bit words, with the key position `k < 2048`.  All the numbers are below `2^31`, so no word
  wraps and the signed comparison is the comparison of the natural numbers: the bit is set exactly when
  `k ≤ n · 512 + r`.
-/
import Idealize.ShloMosaic.Lib.ValueIdx

namespace Cert.Attn.Tile

open Idealize.ShloMosaic

/-- The word of a tile's row position: the tile offset `n · 512` plus the row, without wrapping. -/
theorem tile_row_word (n r : ℕ) (hn : n < 4) (hr : r < 512) :
    IntOp.addi (Scalar.muli (BitVec.ofNat 32 n) 512#32) (BitVec.ofNat 32 r) = BitVec.ofNat 32 (n * 512 + r) := by
  unfold IntOp.addi Scalar.muli IntOp.muli
  apply BitVec.eq_of_toNat_eq
  simp only [BitVec.toNat_add, BitVec.toNat_mul, BitVec.toNat_ofNat]
  omega

/-- A small natural number's word read as a signed integer is the number. -/
theorem toInt_ofNat_small (m : ℕ) (hm : m < 4096) : (BitVec.ofNat 32 m).toInt = (m : ℤ) := by
  rw [BitVec.toInt_eq_toNat_of_lt (by simp only [BitVec.toNat_ofNat]; omega)]
  simp only [BitVec.toNat_ofNat]
  omega

/-- The mask's bit: "row position ≥ key position", signed, is `k ≤ n · 512 + r`. -/
theorem mask_bit (n r k : ℕ) (hn : n < 4) (hr : r < 512) (hk : k < 2048) :
    IntOp.cmpi .sge (IntOp.addi (Scalar.muli (BitVec.ofNat 32 n) 512#32) (BitVec.ofNat 32 r)) (BitVec.ofNat 32 k)
      = if k ≤ n * 512 + r then 1#1 else 0#1 := by
  rw [tile_row_word n r hn hr]
  show BitVec.ofBool ((BitVec.ofNat 32 k).sle (BitVec.ofNat 32 (n * 512 + r))) = _
  rw [BitVec.sle_eq_decide, toInt_ofNat_small k (by omega), toInt_ofNat_small (n * 512 + r) (by omega)]
  by_cases h : k ≤ n * 512 + r
  · rw [if_pos h, decide_eq_true (by exact_mod_cast h)]; rfl
  · rw [if_neg h, decide_eq_false (by exact_mod_cast h)]; rfl

end Cert.Attn.Tile
-- ==== Proof.TileScore.lean ====
/-
  The scores of a query tile against all keys, as the kernel computes them, read at an entry.

  The kernel projects the tile's 512 positions to queries, multiplies every query entry by 1/8, contracts the scaled
  queries with the transposed array of keys over the 64 columns, and replaces the entries above the diagonal (key
  position after the query position) by the named constant that denotes −∞.  Scaling every entry of one factor
  before a contraction is scaling the contraction, so at row `r` of tile `q` and key `k` this is the specification's
  `score` of position `q · 512 + r` against `k`.
-/
import proofs.«139778_j2791728742648_2_alg».proof.Proof.Gen.KernelIdeal.Skeleton
import proofs.«139778_j2791728742648_2_alg».proof.Proof.Spec
import proofs.«139778_j2791728742648_2_alg».proof.Proof.TileProj
import proofs.«139778_j2791728742648_2_alg».proof.Proof.TileMask

noncomputable section

open scoped BigOperators

namespace Cert.Attn.Tile

open Cert.KernelIdeal Cert.KernelIdeal.Gen Idealize.ShloMosaic Idealize.ShloMosaic.ValueIdx

/-- The tile's queries, every entry scaled by 1/8 (then the change of format to bf16). -/
def qArr (xt : Vec Ideal S1x512x1024 .f32) (Wq : Vec Ideal S1024x64 .f32) (bq : Vec Ideal S64 .f32) :
    FVec Ideal S512x64 .bf16 :=
  truncf .bf16
    (mulf
      (addf
        (matmul dot_S512x1024_S1024x64_S512x64_1_0_0_1_n_n none
          (truncf .bf16 (shapeCast S512x1024 xt shapeCasts_S1x512x1024_S512x1024 : FVec Ideal S512x1024 .f32)
            bitsLt_bf16_f32 : FVec Ideal S512x1024 .bf16)
          (truncf .bf16 Wq bitsLt_bf16_f32 : FVec Ideal S1024x64 .bf16)
          (constant (F := Ideal) S512x64 .f32 0x00000000#32))
        (broadcastTo S512x64 (shapeCast S1x64 bq shapeCasts_S64_S1x64 : FVec Ideal S1x64 .f32) broadcasts_S1x64_S512x64))
      (broadcast S512x64 (Scalar.ofBits (F := Ideal) .f32 0x3E000000#32)) : FVec Ideal S512x64 .f32)
    bitsLt_bf16_f32

/-- The masked scores of tile `i 1`: the contraction of the scaled queries with the transposed keys where the key
    position is not after the query position, the named constant elsewhere. -/
def scoreArr (i : grid0.Coords) (xt : Vec Ideal S1x512x1024 .f32) (Wq : Vec Ideal S1024x64 .f32) (bq : Vec Ideal S64 .f32)
    (Kc : Vec Ideal S2048x64 .f32) : FVec Ideal S512x2048 .f32 :=
  select
    (cmpi .sge
      (addi (broadcast S512x2048 (Scalar.muli (BitVec.ofNat 32 (i 1).val) 512#32))
        (iota .tc S512x2048 32 [0] iota_S512x2048_d0_w32))
      (iota .tc S512x2048 32 [1] iota_S512x2048_d1_w32))
    (matmul dot_S512x64_S64x2048_S512x2048_1_0_0_1_n_n none (qArr xt Wq bq)
      (transpose S64x2048 [1, 0] (truncf .bf16 Kc bitsLt_bf16_f32 : FVec Ideal S2048x64 .bf16)
        transposes_S2048x64_p1_0_S64x2048 : FVec Ideal S64x2048 .bf16)
      (constant (F := Ideal) S512x2048 .f32 0x00000000#32))
    (broadcast S512x2048 (Named.named (F := Ideal) κ "neg_big" (φ := .f32) 0xFF333332#32))

/-- The named mask constant denotes −∞. -/
theorem neg_big : Named.named (F := Ideal) Cert.KernelIdeal.κ "neg_big" (φ := .f32) 0xFF333332#32 = (⊥ : EReal) :=
  IdealRules.named_const.ideal_named_scalar _ _ _ _ rfl

/-- A scaled query entry: the projection of the tile's row times 1/8. -/
theorem qArr_value (xt : Vec Ideal S1x512x1024 .f32) (Wq : Vec Ideal S1024x64 .f32) (bq : Vec Ideal S64 .f32)
    (r : Fin 512) (h : Fin 64) :
    qArr xt Wq bq (ix2 r h)
      = ((∑ d : Fin 1024, xt (ix3 (0 : Fin 1) r d) * Wq (ix2 d h)) + bq (ix1 h)) * Cert.Attn.scale := by
  unfold qArr
  rw [truncf_apply, mulf_apply, broadcast_apply]
  refine (congrArg (· * _) (proj_block_apply _ dot_q_eq xt Wq bq _ _ _ _ r h)).trans ?_
  exact congrArg _ Cert.Attn.ofBits_eighth

/-- The contraction of the scaled queries with the transposed keys, at `(r, k)`. -/
theorem qk_value (q : Fin 4) (xt : Vec Ideal S1x512x1024 .f32) (Wq : Vec Ideal S1024x64 .f32) (bq : Vec Ideal S64 .f32)
    (Kc : Vec Ideal S2048x64 .f32)
    (xr : Fin 2048 → Fin 1024 → EReal) (Wk : Cert.Attn.SW.Idx → EReal) (bk : Cert.Attn.SB.Idx → EReal)
    (hx : ∀ (r : Fin 512) (d : Fin 1024), xt (ix3 0 r d) = xr (Cert.Attn.rowOf q r) d)
    (hK : ∀ (k : Fin 2048) (h : Fin 64), Kc (ix2 k h) = Cert.Attn.proj xr Wk bk k h)
    (r : Fin 512) (k : Fin 2048) :
    matmul dot_S512x64_S64x2048_S512x2048_1_0_0_1_n_n none (qArr xt Wq bq)
        (transpose S64x2048 [1, 0] (truncf .bf16 Kc bitsLt_bf16_f32 : FVec Ideal S2048x64 .bf16)
          transposes_S2048x64_p1_0_S64x2048 : FVec Ideal S64x2048 .bf16)
        (constant (F := Ideal) S512x2048 .f32 0x00000000#32) (ix2 r k)
      = (∑ h : Fin 64, Cert.Attn.proj xr Wq bq (Cert.Attn.rowOf q r) h * Cert.Attn.proj xr Wk bk k h) * Cert.Attn.scale := by
  unfold matmul
  rw [matmul_apply_of_plain _ dot_qk_eq, ← Cert.Attn.sum_scaled]
  refine Finset.sum_congr rfl fun h _ => ?_
  rw [qArr_value, transpose_ix2_apply, truncf_apply, hK]
  unfold Cert.Attn.proj
  simp only [hx]

/-- The kernel's masked score at `(r, k)` of tile `q` is the specification's score of position `q · 512 + r` against
    key `k`. -/
theorem scoreArr_value (i : grid0.Coords) (q : Fin 4) (hq : (i 1).val = q.val)
    (xt : Vec Ideal S1x512x1024 .f32) (Wq : Vec Ideal S1024x64 .f32) (bq : Vec Ideal S64 .f32) (Kc : Vec Ideal S2048x64 .f32)
    (xr : Fin 2048 → Fin 1024 → EReal) (Wk : Cert.Attn.SW.Idx → EReal) (bk : Cert.Attn.SB.Idx → EReal)
    (hx : ∀ (r : Fin 512) (d : Fin 1024), xt (ix3 0 r d) = xr (Cert.Attn.rowOf q r) d)
    (hK : ∀ (k : Fin 2048) (h : Fin 64), Kc (ix2 k h) = Cert.Attn.proj xr Wk bk k h)
    (r : Fin 512) (k : Fin 2048) :
    scoreArr i xt Wq bq Kc (ix2 r k) = Cert.Attn.score xr Wq bq Wk bk (Cert.Attn.rowOf q r) k := by
  unfold scoreArr
  rw [select_apply, qk_value q xt Wq bq Kc xr Wk bk hx hK r k, broadcast_apply, neg_big]
  show Scalar.select (IntOp.cmpi .sge
      (IntOp.addi (Scalar.muli (BitVec.ofNat 32 (i 1).val) 512#32) (iota .tc S512x2048 32 [0] iota_S512x2048_d0_w32 (ix2 r k)))
      (iota .tc S512x2048 32 [1] iota_S512x2048_d1_w32 (ix2 r k))) _ _ = _
  rw [iota_single_apply, iota_single_apply, hq]
  show Scalar.select (IntOp.cmpi .sge
      (IntOp.addi (Scalar.muli (BitVec.ofNat 32 q.val) 512#32) (BitVec.ofNat 32 r.val)) (BitVec.ofNat 32 k.val)) _ _ = _
  rw [mask_bit q.val r.val k.val q.isLt r.isLt k.isLt]
  unfold Cert.Attn.score
  show _ = if k.val ≤ q.val * 512 + r.val then _ else ⊥
  by_cases hle : k.val ≤ q.val * 512 + r.val
  · rw [if_pos hle, if_pos hle]; exact select_one _ _
  · rw [if_neg hle, if_neg hle]; exact select_zero _ _

end Cert.Attn.Tile

end
-- ==== Proof.TileSoftmax.lean ====
/-
  The softmax of a `[512, 2048]` array of scores along its rows, as the kernel computes it, read at an entry.

  From the scores `s` the kernel takes the row maxima `m[r] = max_k s[r, k]` (a reduction started from −∞), the shifted
  exponentials `e[r, k] = exp (s[r, k] − m[r])`, the row sums `d[r] = Σ_k e[r, k]` (a reduction started from 0) and the
  quotients `e[r, k] / d[r]`; the maxima and the sums are put back on the `[512, 2048]` grid as a column repeated along
  the columns.  Over the extended reals the maximum from −∞ is the supremum, so at `(r, k)` the result is
  `exp (s[r, k] − sup_j s[r, j]) / Σ_j exp (s[r, j] − sup_j s[r, j])` — whatever the scores are (−∞ entries included).
-/
import proofs.«139778_j2791728742648_2_alg».proof.Proof.Gen.KernelIdeal.Skeleton
import proofs.«139778_j2791728742648_2_alg».proof.Proof.LibRowMax
import proofs.«139778_j2791728742648_2_alg».proof.Proof.TileLayout

noncomputable section

open scoped BigOperators

namespace Cert.Attn.Tile

open Cert.KernelIdeal Cert.KernelIdeal.Gen Idealize.ShloMosaic Idealize.ShloMosaic.ValueIdx

/-- The row maxima put back on the grid: a column repeated along the columns. -/
def rowMaxGrid (s : FVec Ideal S512x2048 .f32) : FVec Ideal S512x2048 .f32 :=
  broadcastTo S512x2048
    (shapeCast S512x1
      (multiReduction (F := Ideal) .maximumf [1] S512 s 0xFF800000#32 reduces_S512x2048_S512 (.inl rfl) rfl)
      shapeCasts_S512_S512x1)
    broadcasts_S512x1_S512x2048

/-- The exponentials of the scores shifted by their row's maximum. -/
def expShift (s : FVec Ideal S512x2048 .f32) : FVec Ideal S512x2048 .f32 :=
  exp (subf s (rowMaxGrid s))

/-- The row sums of an array put back on the grid: a column repeated along the columns. -/
def rowSumGrid (e : FVec Ideal S512x2048 .f32) : FVec Ideal S512x2048 .f32 :=
  broadcastTo S512x2048
    (shapeCast S512x1
      (multiReduction (F := Ideal) .add [1] S512 e 0x00000000#32 reduces_S512x2048_S512 (.inl rfl) rfl)
      shapeCasts_S512_S512x1)
    broadcasts_S512x1_S512x2048

/-- The normalised weights: the shifted exponentials over their row sums (then the change of format to bf16). -/
def softmaxOf (s : FVec Ideal S512x2048 .f32) : FVec Ideal S512x2048 .bf16 :=
  truncf .bf16 (divf (expShift s) (rowSumGrid (expShift s))) bitsLt_bf16_f32

/-- The supremum of row `r` of an array of scores. -/
def rowSup (s : FVec Ideal S512x2048 .f32) (r : Fin 512) : EReal :=
  Finset.univ.sup fun k : Fin 2048 => s (ix2 r k)

theorem rowMaxGrid_value (s : FVec Ideal S512x2048 .f32) (r : Fin 512) (k : Fin 2048) :
    rowMaxGrid s (ix2 r k) = rowSup s r := by
  unfold rowMaxGrid rowSup
  rw [column_keepdims_apply]
  exact Cert.LibRowMax.multiReduction_max_rows_apply s reduces_S512x2048_S512 (.inl rfl) rfl r

theorem expShift_value (s : FVec Ideal S512x2048 .f32) (r : Fin 512) (k : Fin 2048) :
    expShift s (ix2 r k) = Ideal.exp (s (ix2 r k) - rowSup s r) := by
  unfold expShift
  show Ideal.exp (s (ix2 r k) - rowMaxGrid s (ix2 r k)) = _
  rw [rowMaxGrid_value]

theorem rowSumGrid_value (e : FVec Ideal S512x2048 .f32) (r : Fin 512) (k : Fin 2048) :
    rowSumGrid e (ix2 r k) = ∑ j : Fin 2048, e (ix2 r j) := by
  unfold rowSumGrid
  rw [column_keepdims_apply]
  exact multiReduction_add_rows_apply e reduces_S512x2048_S512 (.inl rfl) rfl r

/-- The kernel's softmax at an entry. -/
theorem softmaxOf_value (s : FVec Ideal S512x2048 .f32) (r : Fin 512) (k : Fin 2048) :
    softmaxOf s (ix2 r k)
      = Ideal.div (Ideal.exp (s (ix2 r k) - rowSup s r)) (∑ j : Fin 2048, Ideal.exp (s (ix2 r j) - rowSup s r)) := by
  unfold softmaxOf
  rw [truncf_apply, divf_apply, rowSumGrid_value, expShift_value]
  exact congrArg _ (Finset.sum_congr rfl fun j _ => expShift_value s r j)

end Cert.Attn.Tile

end
-- ==== Proof.TileValue.lean ====
/-
  A query tile's output, as the kernel computes it, read at an entry.

  The kernel's weights are the softmax (along the keys) of the tile's masked scores; the output block is the product
  of the weights with the array of values kept for the batch element, viewed `[1, 512, 64]`.  With the scores identified
  with the specification's `score`, the row supremum is its `rowMax`, the shifted exponentials its `weight`, their row
  sum its `denom`, and the product at `(0, r, h)` its `attnRow` of position `q · 512 + r`, column `h`.

  The module ends with the three facts about the kernel's stored arrays: what the two arrays kept for a batch element
  hold (`cacheK_value`, `cacheV_value`: the projections of its 2048 positions) and the tile's output (`tile_value`).
-/
import proofs.«139778_j2791728742648_2_alg».proof.Proof.Gen.KernelIdeal.Skeleton
import proofs.«139778_j2791728742648_2_alg».proof.Proof.Spec
import proofs.«139778_j2791728742648_2_alg».proof.Proof.TileProj
import proofs.«139778_j2791728742648_2_alg».proof.Proof.TileScore
import proofs.«139778_j2791728742648_2_alg».proof.Proof.TileSoftmax

noncomputable section

open scoped BigOperators

namespace Cert.Attn.Tile

open Cert.KernelIdeal Cert.KernelIdeal.Gen Idealize.ShloMosaic Idealize.ShloMosaic.ValueIdx

/-- The kernel's weights are the softmax of its masked scores. -/
theorem pay5_eq (i : grid0.Coords) (xt : Vec Ideal S1x512x1024 .f32) (Wq : Vec Ideal S1024x64 .f32) (bq : Vec Ideal S64 .f32)
    (Kc : Vec Ideal S2048x64 .f32) :
    k0_pay5 (F := Ideal) i xt Wq bq Kc = softmaxOf (scoreArr i xt Wq bq Kc) := rfl

/-- The output block: at `(0, r, h)` the sum over the keys `k` of the weight `(r, k)` times the value `(k, h)`. -/
theorem pay1_value (Pw : FVec Ideal S512x2048 .bf16) (Vc : Vec Ideal S2048x64 .f32) (r : Fin 512) (h : Fin 64) :
    k0_pay1 (F := Ideal) Pw Vc (ix3 0 r h) = ∑ k : Fin 2048, Pw (ix2 r k) * Vc (ix2 k h) := by
  unfold k0_pay1
  refine (shapeCast_ab_1ab_apply _ _ 0 r h).trans ?_
  unfold matmul
  rw [matmul_apply_of_plain _ dot_pv_eq]
  exact Finset.sum_congr rfl fun k _ => by rw [truncf_apply]

/-- The array of keys kept for a batch element: at `(r, h)` the projection of position `r` on column `h`. -/
theorem cacheK_value (xb : Vec Ideal S1x2048x1024 .f32) (W : Vec Ideal S1024x64 .f32) (b : Vec Ideal S64 .f32)
    (r : Fin 2048) (h : Fin 64) :
    k0_pay3 (F := Ideal) xb W b (ix2 r h) = Cert.Attn.proj (fun s d => xb (ix3 0 s d)) W b r h := by
  unfold k0_pay3 k0_pay2
  exact (congrFun (shapeCast_self _ _) _).trans
    (proj_block_apply dot_S2048x1024_S1024x64_S2048x64_1_0_0_1_n_n dot_kv_eq xb W b _ _ _ _ r h)

/-- The array of values kept for a batch element, likewise. -/
theorem cacheV_value (xb : Vec Ideal S1x2048x1024 .f32) (W : Vec Ideal S1024x64 .f32) (b : Vec Ideal S64 .f32)
    (r : Fin 2048) (h : Fin 64) :
    k0_pay4 (F := Ideal) xb W b (ix2 r h) = Cert.Attn.proj (fun s d => xb (ix3 0 s d)) W b r h := by
  unfold k0_pay4 k0_pay2
  exact (congrFun (shapeCast_self _ _) _).trans
    (proj_block_apply dot_S2048x1024_S1024x64_S2048x64_1_0_0_1_n_n dot_kv_eq xb W b _ _ _ _ r h)

/-- The output of tile `q` at row `r`, column `h` is the attention output of position `q · 512 + r`. -/
theorem tile_value (i : grid0.Coords) (q : Fin 4) (hq : (i 1).val = q.val)
    (xt : Vec Ideal S1x512x1024 .f32) (Wq : Vec Ideal S1024x64 .f32) (bq : Vec Ideal S64 .f32) (Kc Vc : Vec Ideal S2048x64 .f32)
    (xr : Fin 2048 → Fin 1024 → EReal) (Wk : Cert.Attn.SW.Idx → EReal) (bk : Cert.Attn.SB.Idx → EReal)
    (Wv : Cert.Attn.SW.Idx → EReal) (bv : Cert.Attn.SB.Idx → EReal)
    (hx : ∀ (r : Fin 512) (d : Fin 1024), xt (ix3 0 r d) = xr (Cert.Attn.rowOf q r) d)
    (hK : ∀ (k : Fin 2048) (h : Fin 64), Kc (ix2 k h) = Cert.Attn.proj xr Wk bk k h)
    (hV : ∀ (k : Fin 2048) (h : Fin 64), Vc (ix2 k h) = Cert.Attn.proj xr Wv bv k h)
    (r : Fin 512) (h : Fin 64) :
    k0_pay1 (F := Ideal) (k0_pay5 i xt Wq bq Kc) Vc (ix3 0 r h)
      = Cert.Attn.attnRow xr Wq bq Wk bk Wv bv (Cert.Attn.rowOf q r) h := by
  rw [pay1_value, pay5_eq]
  have hs : ∀ k : Fin 2048, scoreArr i xt Wq bq Kc (ix2 r k) = Cert.Attn.score xr Wq bq Wk bk (Cert.Attn.rowOf q r) k :=
    scoreArr_value i q hq xt Wq bq Kc xr Wk bk hx hK r
  have hsup : rowSup (scoreArr i xt Wq bq Kc) r = Cert.Attn.rowMax xr Wq bq Wk bk (Cert.Attn.rowOf q r) := by
    unfold rowSup Cert.Attn.rowMax
    exact congrArg _ (funext hs)
  unfold Cert.Attn.attnRow
  refine Finset.sum_congr rfl fun k _ => ?_
  rw [softmaxOf_value, hV, hsup]
  unfold Cert.Attn.denom Cert.Attn.weight
  simp only [hs]

end Cert.Attn.Tile

end
-- ==== Proof.Blocks.lean ====
/-
  From the sixteen output blocks to the whole result.

  Grid point `t` is batch element `t / 4`, query tile `t % 4`.  Its input blocks are that batch element's row of the
  input and the whole weight matrices and biases.  By induction on the point the two carried scratch buffers hold
  the key and value projections of the current batch element's row (`caches`): the element's first tile stores them,
  its later tiles leave them as they are.  Hence what any point writes back is the specification's block at
  (t / 4, 512 (t % 4) …, ·) (`flushed_eq`), the sixteen blocks tile the [4, 2048, 64] result (`cover`), and the result
  array after the run is the specification of the argument arrays (`final`, `run`).
-/
import proofs.«139778_j2791728742648_2_alg».proof.Defs
import proofs.«139778_j2791728742648_2_alg».proof.Proof.Gen.KernelIdeal.Frame
import proofs.«139778_j2791728742648_2_alg».proof.Proof.Gen.KernelIdeal.Value
import proofs.«139778_j2791728742648_2_alg».proof.Proof.Spec
import proofs.«139778_j2791728742648_2_alg».proof.Proof.Pieces
import proofs.«139778_j2791728742648_2_alg».proof.Proof.TileValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Attn.Blocks
open Cert.KernelIdeal Cert.KernelIdeal.Gen Cert.KernelIdeal.Value Idealize.ShloMosaic.ValueIdx Cert.Attn.Pieces

variable (m : (ℓ : Loc nD τ sig) → Buf (Elt Ideal) ℓ) (ρ : Dev nD → PrngReg)

/-- The printed index maps over the 16 grid points: point `t` is batch element `t / 4`, query tile `t % 4`;
    the input row block follows the batch element, the weights and biases are one block, the output block follows
    both. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val / 4 ∧ win0_7.index t (1 : Fin 3) = t.val % 4 ∧ win0_7.index t (2 : Fin 3) = 0 :=
  (by decide +kernel : ∀ t : Fin grid0.N, _)

theorem coords_tile : ∀ t : Fin cfg0.N, ((grid0.coords t) 1).val = t.val % 4 :=
  (by decide +kernel : ∀ t : Fin grid0.N, _)

/-- The input row block at point `t` is batch element `t / 4` of the input. -/
theorem x_block (c : Dev nD) (t : Fin cfg0.N) (b : Fin 4) (hb : b.val = t.val / 4) (s : Fin 2048) (d : Fin 1024) :
    iblk m c 0 t (ix3 0 s d) = V m c main_arg0 (ix3 b s d) := by
  show V m c main_arg0 (((cfg0.win 0).blk t).view.emb (ix3 0 s d)) = V m c main_arg0 (ix3 b s d)
  refine congrArg (V m c main_arg0) (funext fun a => Fin.ext ?_)
  obtain ⟨e0, e1, e2, -⟩ := idx_facts t
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 1024 + 1 * d.val = d.val; omega

/-- A weight matrix's block is the whole matrix, at every point. -/
theorem wq_block (c : Dev nD) (t : Fin cfg0.N) : (iblk m c 1 t : Vec Ideal S1024x64 .f32) = V m c main_arg1 := by
  funext y
  show V m c main_arg1 (((cfg0.win 1).blk t).view.emb y) = V m c main_arg1 y
  refine congrArg (V m c main_arg1) (funext fun a => Fin.ext ?_)
  obtain ⟨-, -, -, e0, e1, -⟩ := idx_facts t
  match a with
  | ⟨0, _⟩ => show win0_1.index t (0 : Fin 2) * 1024 + 1 * (y 0).val = (y 0).val; omega
  | ⟨1, _⟩ => show win0_1.index t (1 : Fin 2) * 64 + 1 * (y 1).val = (y 1).val; omega
theorem bq_block (c : Dev nD) (t : Fin cfg0.N) : (iblk m c 2 t : Vec Ideal S64 .f32) = V m c main_arg2 := by
  funext y
  show V m c main_arg2 (((cfg0.win 2).blk t).view.emb y) = V m c main_arg2 y
  refine congrArg (V m c main_arg2) (funext fun a => Fin.ext ?_)
  obtain ⟨-, -, -, -, -, e0, -⟩ := idx_facts t
  match a with
  | ⟨0, _⟩ => show win0_2.index t (0 : Fin 1) * 64 + 1 * (y 0).val = (y 0).val; omega
theorem wk_block (c : Dev nD) (t : Fin cfg0.N) : (iblk m c 3 t : Vec Ideal S1024x64 .f32) = V m c main_arg3 := by
  funext y
  show V m c main_arg3 (((cfg0.win 3).blk t).view.emb y) = V m c main_arg3 y
  refine congrArg (V m c main_arg3) (funext fun a => Fin.ext ?_)
  obtain ⟨-, -, -, -, -, -, e0, e1, -⟩ := idx_facts t
  match a with
  | ⟨0, _⟩ => show win0_3.index t (0 : Fin 2) * 1024 + 1 * (y 0).val = (y 0).val; omega
  | ⟨1, _⟩ => show win0_3.index t (1 : Fin 2) * 64 + 1 * (y 1).val = (y 1).val; omega
theorem bk_block (c : Dev nD) (t : Fin cfg0.N) : (iblk m c 4 t : Vec Ideal S64 .f32) = V m c main_arg4 := by
  funext y
  show V m c main_arg4 (((cfg0.win 4).blk t).view.emb y) = V m c main_arg4 y
  refine congrArg (V m c main_arg4) (funext fun a => Fin.ext ?_)
  obtain ⟨-, -, -, -, -, -, -, -, e0, -⟩ := idx_facts t
  match a with
  | ⟨0, _⟩ => show win0_4.index t (0 : Fin 1) * 64 + 1 * (y 0).val = (y 0).val; omega
theorem wv_block (c : Dev nD) (t : Fin cfg0.N) : (iblk m c 5 t : Vec Ideal S1024x64 .f32) = V m c main_arg5 := by
  funext y
  show V m c main_arg5 (((cfg0.win 5).blk t).view.emb y) = V m c main_arg5 y
  refine congrArg (V m c main_arg5) (funext fun a => Fin.ext ?_)
  obtain ⟨-, -, -, -, -, -, -, -, -, e0, e1, -⟩ := idx_facts t
  match a with
  | ⟨0, _⟩ => show win0_5.index t (0 : Fin 2) * 1024 + 1 * (y 0).val = (y 0).val; omega
  | ⟨1, _⟩ => show win0_5.index t (1 : Fin 2) * 64 + 1 * (y 1).val = (y 1).val; omega
theorem bv_block (c : Dev nD) (t : Fin cfg0.N) : (iblk m c 6 t : Vec Ideal S64 .f32) = V m c main_arg6 := by
  funext y
  show V m c main_arg6 (((cfg0.win 6).blk t).view.emb y) = V m c main_arg6 y
  refine congrArg (V m c main_arg6) (funext fun a => Fin.ext ?_)
  obtain ⟨-, -, -, -, -, -, -, -, -, -, -, e0, -⟩ := idx_facts t
  match a with
  | ⟨0, _⟩ => show win0_6.index t (0 : Fin 1) * 64 + 1 * (y 0).val = (y 0).val; omega

/-- Batch element `b` of the input, as the region finds it: 2048 positions of 1024 features. -/
def xrow (c : Dev nD) (b : Fin 4) : Fin 2048 → Fin 1024 → EReal := fun s d => V m c main_arg0 (ix3 b s d)

theorem xrow_block (c : Dev nD) (t : Fin cfg0.N) (b : Fin 4) (hb : b.val = t.val / 4) :
    (fun (s : Fin 2048) (d : Fin 1024) => iblk m c 0 t (ix3 0 s d)) = xrow m c b :=
  funext fun s => funext fun d => x_block m c t b hb s d

/-- THE CARRIED CACHES.  After any point `n` of batch element `b = n / 4` the two scratch buffers hold the key and the
    value projections of that batch element's row: stored at the element's first tile (`n % 4 = 0`), untouched at its
    later tiles — by induction on the point. -/
theorem caches (c : Dev nD) : ∀ (n : ℕ) (hn : n < cfg0.N) (b : Fin 4), b.val = n / 4 →
    (∀ (k : Fin 2048) (h : Fin 64), (outsAt0 m c n hn).2.1 (ix2 k h) = proj (xrow m c b) (V m c main_arg3) (V m c main_arg4) k h)
    ∧ (∀ (k : Fin 2048) (h : Fin 64), (outsAt0 m c n hn).2.2 (ix2 k h) = proj (xrow m c b) (V m c main_arg5) (V m c main_arg6) k h) := by
  intro n
  induction n with
  | zero =>
    intro hn b hb
    rw [outsAt0_A m c ⟨0, hn⟩ rfl]
    dsimp only
    rw [keys_A, values_A]
    constructor <;> intro k h
    · refine (Cert.Attn.Tile.cacheK_value (iblk m c 0 ⟨0, hn⟩) (iblk m c 3 ⟨0, hn⟩) (iblk m c 4 ⟨0, hn⟩) k h).trans ?_
      rw [xrow_block m c ⟨0, hn⟩ b hb, wk_block m c ⟨0, hn⟩, bk_block m c ⟨0, hn⟩]
    · refine (Cert.Attn.Tile.cacheV_value (iblk m c 0 ⟨0, hn⟩) (iblk m c 5 ⟨0, hn⟩) (iblk m c 6 ⟨0, hn⟩) k h).trans ?_
      rw [xrow_block m c ⟨0, hn⟩ b hb, wv_block m c ⟨0, hn⟩, bv_block m c ⟨0, hn⟩]
  | succ n ih =>
    intro hn b hb
    by_cases h0 : (n + 1) % 4 = 0
    · rw [outsAt0_A m c ⟨n + 1, hn⟩ h0]
      dsimp only
      rw [keys_A, values_A]
      constructor <;> intro k h
      · refine (Cert.Attn.Tile.cacheK_value (iblk m c 0 ⟨n + 1, hn⟩) (iblk m c 3 ⟨n + 1, hn⟩) (iblk m c 4 ⟨n + 1, hn⟩) k h).trans ?_
        rw [xrow_block m c ⟨n + 1, hn⟩ b hb, wk_block m c ⟨n + 1, hn⟩, bk_block m c ⟨n + 1, hn⟩]
      · refine (Cert.Attn.Tile.cacheV_value (iblk m c 0 ⟨n + 1, hn⟩) (iblk m c 5 ⟨n + 1, hn⟩) (iblk m c 6 ⟨n + 1, hn⟩) k h).trans ?_
        rw [xrow_block m c ⟨n + 1, hn⟩ b hb, wv_block m c ⟨n + 1, hn⟩, bv_block m c ⟨n + 1, hn⟩]
    · rw [outsAt0_B m c ⟨n + 1, hn⟩ h0]
      dsimp only
      unfold sout0_B_0 sout0_B_1
      exact ih (Nat.lt_of_succ_lt hn) b (by omega)

/-- The specification at the argument arrays as the region finds them. -/
abbrev Gv (c : Dev nD) : S4x2048x64.Idx → EReal :=
  Cert.Attn.G (V m c main_arg0) (V m c main_arg1) (V m c main_arg2) (V m c main_arg3) (V m c main_arg4) (V m c main_arg5) (V m c main_arg6)

theorem Gv_ix3 (c : Dev nD) (b : Fin 4) (s : Fin 2048) (h : Fin 64) :
    Gv m c (ix3 b s h) = attnRow (xrow m c b) (V m c main_arg1) (V m c main_arg2) (V m c main_arg3) (V m c main_arg4)
      (V m c main_arg5) (V m c main_arg6) s h := rfl

/-- Entry `(0, r, h)` of the output block at point `t` is entry `(t / 4, 512 (t % 4) + r, h)` of the result. -/
theorem out_emb (t : Fin cfg0.N) (b q : Fin 4) (hb : b.val = t.val / 4) (hq : q.val = t.val % 4) (r : Fin 512) (h : Fin 64) :
    ((cfg0.win 7).blk t).view.emb (ix3 0 r h) = ix3 b (rowOf q r) h := by
  obtain ⟨-, -, -, -, -, -, -, -, -, -, -, -, e0, e1, e2⟩ := idx_facts t
  funext a; apply Fin.ext
  match a with
  | ⟨0, _⟩ => show win0_7.index t (0 : Fin 3) * 1 + 1 * 0 = b.val; omega
  | ⟨1, _⟩ => show win0_7.index t (1 : Fin 3) * 512 + 1 * r.val = q.val * 512 + r.val; rw [e1, hq]; omega
  | ⟨2, _⟩ => show win0_7.index t (2 : Fin 3) * 64 + 1 * h.val = h.val; omega

/-- An index of a [1, 512, 64] block is `(0, r, h)`. -/
theorem split_idx (j : S1x512x64.Idx) : ∃ (r : Fin 512) (h : Fin 64), j = ix3 0 r h := by
  refine ⟨j 1, j 2, ?_⟩
  have h0 : (j 0).val < 1 := (j 0).isLt
  funext a
  match a with
  | ⟨0, _⟩ => exact Fin.ext (show (j 0).val = 0 by omega)
  | ⟨1, _⟩ => rfl
  | ⟨2, _⟩ => rfl

/-- WHAT POINT `t` WRITES BACK is block `t` of the specification: the tile's 512 query rows attend to all keys and
    values of their batch element, which the caches hold whether this point stored them (first tile) or an earlier
    one did. -/
theorem flushed_eq (c : Dev nD) (t : Fin cfg0.N) :
    (dats m 0 c).flushed 7 t = ((cfg0.win 7).blk t).view.read (Elt Ideal) (Gv m c) := by
  have hN : t.val < 16 := lt_of_lt_of_eq t.isLt (show cfg0.N = 16 from N_0)
  have hq0 : ((grid0.coords t) 1).val = t.val % 4 := coords_tile t
  obtain ⟨b, hb⟩ : ∃ b : Fin 4, b.val = t.val / 4 := ⟨⟨t.val / 4, by omega⟩, rfl⟩
  obtain ⟨q, hq⟩ : ∃ q : Fin 4, q.val = t.val % 4 := ⟨⟨t.val % 4, by omega⟩, rfl⟩
  have hx : ∀ (r : Fin 512) (d : Fin 1024), tile (grid0.coords t) (iblk m c 0 t) (ix3 0 r d) = xrow m c b (rowOf q r) d :=
    fun r d => (tile_read (grid0.coords t) q (hq0.trans hq.symm) (iblk m c 0 t) r d).trans (x_block m c t b hb (rowOf q r) d)
  by_cases h0 : t.val % 4 = 0
  · rw [flushed7_A m c t h0, out_A]
    refine funext fun (j : S1x512x64.Idx) => ?_
    obtain ⟨r, h, rfl⟩ := split_idx j
    show (k0_pay1 (F := Ideal) (k0_pay5 (grid0.coords t) (tile (grid0.coords t) (iblk m c 0 t)) (iblk m c 1 t) (iblk m c 2 t)
        (k0_pay3 (iblk m c 0 t) (iblk m c 3 t) (iblk m c 4 t))) (k0_pay4 (iblk m c 0 t) (iblk m c 5 t) (iblk m c 6 t))) (ix3 0 r h)
      = Gv m c (((cfg0.win 7).blk t).view.emb (ix3 0 r h))
    rw [out_emb t b q hb hq r h, Gv_ix3]
    refine (Cert.Attn.Tile.tile_value (grid0.coords t) q (hq0.trans hq.symm) (tile (grid0.coords t) (iblk m c 0 t)) (iblk m c 1 t) (iblk m c 2 t)
      (k0_pay3 (iblk m c 0 t) (iblk m c 3 t) (iblk m c 4 t)) (k0_pay4 (iblk m c 0 t) (iblk m c 5 t) (iblk m c 6 t))
      (xrow m c b) (V m c main_arg3) (V m c main_arg4) (V m c main_arg5) (V m c main_arg6) hx ?_ ?_ r h).trans ?_
    · intro k h'
      refine (Cert.Attn.Tile.cacheK_value (iblk m c 0 t) (iblk m c 3 t) (iblk m c 4 t) k h').trans ?_
      rw [xrow_block m c t b hb, wk_block m c t, bk_block m c t]
    · intro k h'
      refine (Cert.Attn.Tile.cacheV_value (iblk m c 0 t) (iblk m c 5 t) (iblk m c 6 t) k h').trans ?_
      rw [xrow_block m c t b hb, wv_block m c t, bv_block m c t]
    · rw [wq_block m c t, bq_block m c t]
  · rw [flushed7_B m c t h0, out_B]
    obtain ⟨hK, hV⟩ := caches m c (t.val - 1) (Nat.lt_of_le_of_lt (Nat.sub_le _ _) t.isLt) b (by omega)
    refine funext fun (j : S1x512x64.Idx) => ?_
    obtain ⟨r, h, rfl⟩ := split_idx j
    show (k0_pay1 (F := Ideal) (k0_pay5 (grid0.coords t) (tile (grid0.coords t) (iblk m c 0 t)) (iblk m c 1 t) (iblk m c 2 t)
        (outsAt0 m c (t.val - 1) (Nat.lt_of_le_of_lt (Nat.sub_le _ _) t.isLt)).2.1) (outsAt0 m c (t.val - 1) (Nat.lt_of_le_of_lt (Nat.sub_le _ _) t.isLt)).2.2) (ix3 0 r h)
      = Gv m c (((cfg0.win 7).blk t).view.emb (ix3 0 r h))
    rw [out_emb t b q hb hq r h, Gv_ix3]
    refine (Cert.Attn.Tile.tile_value (grid0.coords t) q (hq0.trans hq.symm) (tile (grid0.coords t) (iblk m c 0 t)) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2
      (xrow m c b) (V m c main_arg3) (V m c main_arg4) (V m c main_arg5) (V m c main_arg6) hx hK hV r h).trans ?_
    rw [wq_block m c t, bq_block m c t]

/-- An index of the result is in point `t`'s block iff each coordinate is in the block's range on its axis. -/
theorem mem_blk (t : Fin cfg0.N) (i : S4x2048x64.Idx) :
    i ∈ ((cfg0.win 7).blk t).view.set ↔ ∀ a : Fin 3, win0_7.index t a * S1x512x64.size a ≤ (i a).val ∧ (i a).val < win0_7.index t a * S1x512x64.size a + S1x512x64.size a := by
  show i ∈ ((View.whole main_v0).slice (win0_7.rect t)).set ↔ _
  rw [View.set_slice_whole, Rect.mem_set_unit]
  exact Iff.rfl

/-- The sixteen blocks tile the result: entry `(b, s, h)` is in the block of point `4 b + s / 512`. -/
theorem cover (i : S4x2048x64.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 64 := (i 2).isLt
  obtain ⟨t, ht⟩ : ∃ t : Fin cfg0.N, t.val = (i 0).val * 4 + (i 1).val / 512 :=
    ⟨⟨(i 0).val * 4 + (i 1).val / 512, by rw [show cfg0.N = 16 from N_0]; omega⟩, rfl⟩
  refine ⟨t, flush0_7 t, ?_⟩
  rw [mem_blk]
  obtain ⟨-, -, -, -, -, -, -, -, -, -, -, -, e0, e1, e2⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 64 ≤ (i 2).val ∧ (i 2).val < win0_7.index t (2 : Fin 3) * 64 + 64; omega

/-- THE RESULT ARRAY after the run is the specification of the argument arrays. -/
theorem final (c : Dev nD) : (dats m 0 c).arrAt 7 cfg0.N = Gv m c :=
  (dats m 0 c).arrAt_eq_of_cover 7 (Gv m c) (fun t _ => flushed_eq m c t) cover

/-- The kernel's run, read: the result is the specification of the arguments, the arguments unchanged. -/
theorem run : θ_run defs (onTc (τ := τ) (main (F := Ideal))) ⟨m, fun _ => 0, ρ⟩ fun r => ∀ c : Dev nD,
      r.2.mem ((c : Thread nD τ).loc main_v0) = Gv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Attn.Blocks
end
-- ==== Proof.RefProj.lean ====
/-
  The three linear projections of the reference program, read at an index.

  Each of q, k, v is a contraction of the input over its 1024 features with a weight matrix, plus a bias
  broadcast over batch and position.  At batch element `b`, position `s`, column `h` the entry is
  Σ_d x[b,s,d] · W[d,h] + bias[h], which is the specification's `proj` of the batch row `b`.
-/
import proofs.«139778_j2791728742648_2_alg».proof.Proof.Gen.ReferenceIdeal.Read
import proofs.«139778_j2791728742648_2_alg».proof.Proof.Spec

noncomputable section

open scoped BigOperators

namespace Cert.Attn.Ref

open Idealize.ShloMosaic Idealize.ShloMosaic.ValueIdx Cert.ReferenceIdeal Cert.ReferenceIdeal.Read

/-- Batch row `b` of the input: positions by features. -/
abbrev xrow (x0 : FVec Ideal S4x2048x1024 .f32) (b : Fin 4) : Fin 2048 → Fin 1024 → EReal :=
  fun s d => x0 (ix3 b s d)

/-- The left operand's index in the contraction over features. -/
theorem lidx_v0_ix3 (b : Fin 4) (s : Fin 2048) (h : Fin 64) (d : Fin 1024) :
    lidx_main_v0 (ix3 b s h) d = ix3 b s d :=
  funext fun a => Fin.ext (by match a with | ⟨0, _⟩ => rfl | ⟨1, _⟩ => rfl | ⟨2, _⟩ => rfl)

/-- The right operand's index in the contraction over features. -/
theorem ridx_v0_ix3 (b : Fin 4) (s : Fin 2048) (h : Fin 64) (d : Fin 1024) :
    ridx_main_v0 (ix3 b s h) d = ix2 d h :=
  funext fun a => Fin.ext (by match a with | ⟨0, _⟩ => rfl | ⟨1, _⟩ => rfl)

/-- The bias is read at the column alone. -/
theorem idx_bias_ix3 (b : Fin 4) (s : Fin 2048) (h : Fin 64) :
    idx_main_v1 (idx_main_v2 (ix3 b s h)) = ix1 h :=
  funext fun a => Fin.ext (by match a with | ⟨0, _⟩ => rfl)

/-- The query projection at (b, s, h). -/
theorem q_entry (x0 : FVec Ideal S4x2048x1024 .f32) (x1 : FVec Ideal S1024x64 .f32) (x2 : FVec Ideal S64 .f32)
    (b : Fin 4) (s : Fin 2048) (h : Fin 64) :
    val_main_v3 (F := Ideal) x0 x1 x2 (ix3 b s h) = Cert.Attn.proj (xrow x0 b) x1 x2 s h := by
  rw [val_main_v3_apply, val_main_v0_apply, val_main_v2_apply, val_main_v1_apply, idx_bias_ix3]
  simp only [Ideal.addf_def, lidx_v0_ix3, ridx_v0_ix3]
  rfl

/-- The key projection is the same program text on the key weights. -/
theorem k_entry (x0 : FVec Ideal S4x2048x1024 .f32) (x3 : FVec Ideal S1024x64 .f32) (x4 : FVec Ideal S64 .f32)
    (b : Fin 4) (s : Fin 2048) (h : Fin 64) :
    val_main_v7 (F := Ideal) x0 x3 x4 (ix3 b s h) = Cert.Attn.proj (xrow x0 b) x3 x4 s h :=
  q_entry x0 x3 x4 b s h

/-- The value projection is the same program text on the value weights. -/
theorem v_entry (x0 : FVec Ideal S4x2048x1024 .f32) (x5 : FVec Ideal S1024x64 .f32) (x6 : FVec Ideal S64 .f32)
    (b : Fin 4) (s : Fin 2048) (h : Fin 64) :
    val_main_v11 (F := Ideal) x0 x5 x6 (ix3 b s h) = Cert.Attn.proj (xrow x0 b) x5 x6 s h :=
  q_entry x0 x5 x6 b s h

end Cert.Attn.Ref

end
-- ==== Proof.RefMask.lean ====
/-
  The causal mask of the reference program, read at an index.

  The mask is built from two index arrays over [2048, 2048]: the row index plus zero, and the column index,
  both as 32-bit words, compared "row ≥ column" as signed integers; the result selects between the constants
  true and false.  Both indices are below 2048 < 2^31, so the signed comparison of the words is the comparison
  of the natural numbers: the mask is 1 exactly where the key position is at most the query position.
-/
import proofs.«139778_j2791728742648_2_alg».proof.Proof.Gen.ReferenceIdeal.Read
import proofs.«139778_j2791728742648_2_alg».proof.Proof.Spec

noncomputable section

open scoped BigOperators

namespace Cert.Attn.Ref

open Idealize.ShloMosaic Idealize.ShloMosaic.ValueIdx Cert.ReferenceIdeal Cert.ReferenceIdeal.Read

/-- A natural number below 2048, as a 32-bit word, has itself as signed value. -/
theorem toInt_ofNat_lt (n : Nat) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The signed comparison "row + 0 ≥ column" of two positions is the comparison of the positions. -/
theorem sge_positions (s k : Fin 2048) :
    IntOp.cmpi .sge (IntOp.addi (BitVec.ofNat 32 s.val) 0#32) (BitVec.ofNat 32 k.val)
      = if k.val ≤ s.val then 1#1 else 0#1 := by
  have hs := toInt_ofNat_lt s.val s.isLt
  have hk := toInt_ofNat_lt k.val k.isLt
  unfold IntOp.cmpi IntOp.addi
  simp only [BitVec.add_zero, BitVec.sle, hs, hk]
  by_cases h : k.val ≤ s.val
  · rw [if_pos h, decide_eq_true (by exact_mod_cast h)]; rfl
  · rw [if_neg h, decide_eq_false (by exact_mod_cast h)]; rfl

/-- The mask's index in the [2048, 2048] array does not depend on the batch element. -/
theorem idx_mask_ix3 (b : Fin 4) (s k : Fin 2048) : idx_main_call1_v1 (ix3 b s k) = ix2 s k :=
  funext fun a => Fin.ext (by match a with | ⟨0, _⟩ => rfl | ⟨1, _⟩ => rfl)

/-- The mask at (b, s, k) is 1 exactly when k ≤ s. -/
theorem mask_entry (b : Fin 4) (s k : Fin 2048) :
    val_main_call1_v1 (F := Ideal) (ix3 b s k) = if k.val ≤ s.val then 1#1 else 0#1 := by
  rw [val_main_call1_v1_apply, idx_mask_ix3, val_main_v14_apply, val_main_call0_v4_apply, val_main_call0_v2_apply,
    val_main_call0_v0_apply, val_main_call0_v1_apply, val_main_call0_c_apply, val_main_call0_v3_apply,
    val_main_v13_apply, val_main_c_apply, val_main_call0_v5_apply, val_main_call0_c_0_apply]
  show Scalar.select (IntOp.cmpi .sge (IntOp.addi (BitVec.ofNat 32 s.val) 0#32) (BitVec.ofNat 32 k.val)) 1#1 0#1 = _
  rw [sge_positions]
  by_cases h : k.val ≤ s.val
  · rw [if_pos h, select_one]
  · rw [if_neg h, select_zero]

end Cert.Attn.Ref

end
-- ==== Proof.RefScore.lean ====
/-
  The scores of the reference program, read at an index.

  The unmasked score of query position `s` against key position `k` in batch element `b` is the contraction
  over the 64 columns of the query and key projections.  The mask replaces the entries with k > s by −∞, and
  then every entry is divided by sqrt 64.  Division by sqrt 64 is multiplication by 1/8 on every extended real,
  and −∞ times the positive number 1/8 is −∞: so the entry is the specification's `score`.
-/
import proofs.«139778_j2791728742648_2_alg».proof.Proof.RefProj
import proofs.«139778_j2791728742648_2_alg».proof.Proof.RefMask

noncomputable section

open scoped BigOperators

namespace Cert.Attn.Ref

open Idealize.ShloMosaic Idealize.ShloMosaic.ValueIdx Cert.ReferenceIdeal Cert.ReferenceIdeal.Read

/-- The query side of the contraction over columns reads row `s`. -/
theorem lidx_v12_ix3 (b : Fin 4) (s k : Fin 2048) (h : Fin 64) : lidx_main_v12 (ix3 b s k) h = ix3 b s h :=
  funext fun a => Fin.ext (by match a with | ⟨0, _⟩ => rfl | ⟨1, _⟩ => rfl | ⟨2, _⟩ => rfl)

/-- The key side of the contraction over columns reads row `k`. -/
theorem ridx_v12_ix3 (b : Fin 4) (s k : Fin 2048) (h : Fin 64) : ridx_main_v12 (ix3 b s k) h = ix3 b k h :=
  funext fun a => Fin.ext (by match a with | ⟨0, _⟩ => rfl | ⟨1, _⟩ => rfl | ⟨2, _⟩ => rfl)

/-- The unmasked, unscaled score at (b, s, k). -/
theorem dot_entry (x0 : FVec Ideal S4x2048x1024 .f32) (x1 : FVec Ideal S1024x64 .f32) (x2 : FVec Ideal S64 .f32)
    (x3 : FVec Ideal S1024x64 .f32) (x4 : FVec Ideal S64 .f32) (b : Fin 4) (s k : Fin 2048) :
    val_main_v12 (F := Ideal) x0 x1 x2 x3 x4 (ix3 b s k)
      = ∑ h : Fin 64, Cert.Attn.proj (xrow x0 b) x1 x2 s h * Cert.Attn.proj (xrow x0 b) x3 x4 k h := by
  rw [val_main_v12_apply]
  refine Finset.sum_congr rfl fun h _ => ?_
  rw [lidx_v12_ix3, ridx_v12_ix3, q_entry, k_entry]

/-- The masked, unscaled score at (b, s, k): −∞ above the diagonal. -/
theorem masked_entry (x0 : FVec Ideal S4x2048x1024 .f32) (x1 : FVec Ideal S1024x64 .f32) (x2 : FVec Ideal S64 .f32)
    (x3 : FVec Ideal S1024x64 .f32) (x4 : FVec Ideal S64 .f32) (b : Fin 4) (s k : Fin 2048) :
    val_main_v15 (F := Ideal) x0 x1 x2 x3 x4 (ix3 b s k)
      = if k.val ≤ s.val then
          ∑ h : Fin 64, Cert.Attn.proj (xrow x0 b) x1 x2 s h * Cert.Attn.proj (xrow x0 b) x3 x4 k h
        else ⊥ := by
  rw [val_main_v15_apply, mask_entry, dot_entry, val_main_call1_v2_apply, val_main_call1_v0_apply,
    val_main_cst_apply, Ideal.ofBits_def, Cert.LibRowMax.ofBits_neg_inf_f32]
  by_cases h : k.val ≤ s.val
  · rw [if_pos h, if_pos h, select_one]
  · rw [if_neg h, if_neg h, select_zero]

/-- −∞ scaled by 1/8 is −∞. -/
theorem bot_mul_scale : (⊥ : EReal) * Cert.Attn.scale = ⊥ :=
  EReal.bot_mul_coe_of_pos (by norm_num)

/-- The score at (b, s, k) is the specification's. -/
theorem score_entry (x0 : FVec Ideal S4x2048x1024 .f32) (x1 : FVec Ideal S1024x64 .f32) (x2 : FVec Ideal S64 .f32)
    (x3 : FVec Ideal S1024x64 .f32) (x4 : FVec Ideal S64 .f32) (b : Fin 4) (s k : Fin 2048) :
    val_main_v18 (F := Ideal) x0 x1 x2 x3 x4 (ix3 b s k) = Cert.Attn.score (xrow x0 b) x1 x2 x3 x4 s k := by
  rw [val_main_v18_apply, masked_entry, val_main_v17_apply, val_main_v16_apply, val_main_cst_0_apply,
    Ideal.hostDivf_def, Ideal.hostUnary_sqrt_def, Ideal.ofBits_def, Cert.Attn.div_sqrt64]
  unfold Cert.Attn.score
  by_cases h : k.val ≤ s.val
  · rw [if_pos h, if_pos h]
  · rw [if_neg h, if_neg h, bot_mul_scale]

end Cert.Attn.Ref

end
-- ==== Proof.RefRowMax.lean ====
/-
  The row maximum of the reference program, read at an index.

  The softmax first takes, for every batch element `b` and query position `s`, the maximum of the scores over the
  key positions, started from −∞, and then the maximum of that with −∞ once more.  Over the extended reals −∞ is
  the least element, so a fold of `max` from it is the supremum, and the second maximum changes nothing: the entry
  is the specification's `rowMax`.
-/
import proofs.«139778_j2791728742648_2_alg».proof.Proof.RefScore

noncomputable section

open scoped BigOperators

namespace Cert.Attn.Ref

open Idealize.ShloMosaic Idealize.ShloMosaic.ValueIdx Cert.ReferenceIdeal Cert.ReferenceIdeal.Read

/-- Position (b, s) of the reduced array with the key coordinate `k` put back is (b, s, k). -/
theorem lift_row (h : S4x2048x2048.Reduces [2] S4x2048) (b : Fin 4) (s : Fin 2048)
    (k : Fin (S4x2048x2048.size 2)) : h.lift (ix2 b s) k = ix3 b s (⟨k.val, k.isLt⟩ : Fin 2048) := by
  funext c; apply Fin.ext
  fin_cases c <;> rfl

/-- The reduction over key positions at (b, s) is the supremum of the scores of row `s`. -/
theorem rowmax_raw (x0 : FVec Ideal S4x2048x1024 .f32) (x1 : FVec Ideal S1024x64 .f32) (x2 : FVec Ideal S64 .f32)
    (x3 : FVec Ideal S1024x64 .f32) (x4 : FVec Ideal S64 .f32) (b : Fin 4) (s : Fin 2048) :
    val_main_v19 (F := Ideal) x0 x1 x2 x3 x4 (ix2 b s) = Cert.Attn.rowMax (xrow x0 b) x1 x2 x3 x4 s := by
  unfold val_main_v19
  have hred : S4x2048x2048.Reduces [2] S4x2048 := by decide
  rw [Host.reduce_eq_fold_single FloatOps.maximumf _ _ _ hred, val_main_cst_1_apply, Ideal.ofBits_def,
    Cert.LibRowMax.ofBits_neg_inf_f32]
  have hf : (val_main_v18 (F := Ideal) x0 x1 x2 x3 x4 ∘ hred.lift (ix2 b s))
      = fun k : Fin 2048 => Cert.Attn.score (xrow x0 b) x1 x2 x3 x4 s k :=
    funext fun k => by
      show val_main_v18 (F := Ideal) x0 x1 x2 x3 x4 (hred.lift (ix2 b s) k) = _
      rw [lift_row, score_entry]
      rfl
  rw [hf]
  exact Cert.LibRowMax.fold_max_bot_eq_sup _ _

/-- The row maximum at (b, s) is the specification's. -/
theorem rowmax_entry (x0 : FVec Ideal S4x2048x1024 .f32) (x1 : FVec Ideal S1024x64 .f32) (x2 : FVec Ideal S64 .f32)
    (x3 : FVec Ideal S1024x64 .f32) (x4 : FVec Ideal S64 .f32) (b : Fin 4) (s : Fin 2048) :
    val_main_v21 (F := Ideal) x0 x1 x2 x3 x4 (ix2 b s) = Cert.Attn.rowMax (xrow x0 b) x1 x2 x3 x4 s := by
  rw [val_main_v21_apply, val_main_v20_apply, val_main_cst_2_apply, rowmax_raw, Ideal.maximumf_def,
    Ideal.ofBits_def, Cert.LibRowMax.ofBits_neg_inf_f32]
  exact max_eq_right bot_le

end Cert.Attn.Ref

end
-- ==== Proof.RefIsSpec.lean ====
/-
  The reference program computes the specification.

  With the scores and the row maximum already identified, the rest of the softmax is pointwise: the weight is the
  exponential of the score minus the row maximum (the row maximum is broadcast back along the key axis), the
  normaliser is zero plus the sum of the weights over the key positions, every weight is divided by the
  normaliser of its row, and the result contracts the normalised weights with the value projection over the key
  positions.  Entry by entry this is the specification's `attnRow` of the batch row, that is `G`.
-/
import proofs.«139778_j2791728742648_2_alg».proof.Proof.RefRowMax

noncomputable section

open scoped BigOperators

namespace Cert.Attn.Ref

open Idealize.ShloMosaic Idealize.ShloMosaic.ValueIdx Cert.ReferenceIdeal Cert.ReferenceIdeal.Read

/-- The row maximum is broadcast back along the key axis. -/
theorem idx_max_ix3 (b : Fin 4) (s k : Fin 2048) : idx_main_v22 (idx_main_v23 (ix3 b s k)) = ix2 b s :=
  funext fun a => Fin.ext (by match a with | ⟨0, _⟩ => rfl | ⟨1, _⟩ => rfl)

/-- The normaliser is broadcast back along the key axis. -/
theorem idx_den_ix3 (b : Fin 4) (s k : Fin 2048) : idx_main_v27 (idx_main_v28 (ix3 b s k)) = ix2 b s :=
  funext fun a => Fin.ext (by match a with | ⟨0, _⟩ => rfl | ⟨1, _⟩ => rfl)

/-- The sum over key positions at (b, s) reads (b, s, k). -/
theorem idx_v26_ix2 (b : Fin 4) (s k : Fin 2048) : idx_main_v26 (ix2 b s) k = ix3 b s k :=
  funext fun a => Fin.ext (by match a with | ⟨0, _⟩ => rfl | ⟨1, _⟩ => rfl | ⟨2, _⟩ => rfl)

/-- The weight side of the last contraction reads (b, s, k). -/
theorem lidx_v30_ix3 (b : Fin 4) (s : Fin 2048) (h : Fin 64) (k : Fin 2048) :
    lidx_main_v30 (ix3 b s h) k = ix3 b s k :=
  funext fun a => Fin.ext (by match a with | ⟨0, _⟩ => rfl | ⟨1, _⟩ => rfl | ⟨2, _⟩ => rfl)

/-- The value side of the last contraction reads (b, k, h). -/
theorem ridx_v30_ix3 (b : Fin 4) (s : Fin 2048) (h : Fin 64) (k : Fin 2048) :
    ridx_main_v30 (ix3 b s h) k = ix3 b k h :=
  funext fun a => Fin.ext (by match a with | ⟨0, _⟩ => rfl | ⟨1, _⟩ => rfl | ⟨2, _⟩ => rfl)

/-- The unnormalised softmax weight at (b, s, k). -/
theorem weight_entry (x0 : FVec Ideal S4x2048x1024 .f32) (x1 : FVec Ideal S1024x64 .f32) (x2 : FVec Ideal S64 .f32)
    (x3 : FVec Ideal S1024x64 .f32) (x4 : FVec Ideal S64 .f32) (b : Fin 4) (s k : Fin 2048) :
    val_main_v25 (F := Ideal) x0 x1 x2 x3 x4 (ix3 b s k) = Cert.Attn.weight (xrow x0 b) x1 x2 x3 x4 s k := by
  rw [val_main_v25_apply, val_main_v24_apply, score_entry, val_main_v23_apply, val_main_v22_apply, idx_max_ix3,
    rowmax_entry, Ideal.hostUnary_exp_def, Ideal.subf_def]
  rfl

/-- The softmax normaliser at (b, s). -/
theorem denom_entry (x0 : FVec Ideal S4x2048x1024 .f32) (x1 : FVec Ideal S1024x64 .f32) (x2 : FVec Ideal S64 .f32)
    (x3 : FVec Ideal S1024x64 .f32) (x4 : FVec Ideal S64 .f32) (b : Fin 4) (s : Fin 2048) :
    val_main_v26 (F := Ideal) x0 x1 x2 x3 x4 (ix2 b s) = Cert.Attn.denom (xrow x0 b) x1 x2 x3 x4 s := by
  rw [val_main_v26_apply, val_main_cst_3_apply, Ideal.ofBits_def, Ideal.ofBits_zero_f32, zero_add]
  unfold Cert.Attn.denom
  refine Finset.sum_congr rfl fun k _ => ?_
  rw [idx_v26_ix2, weight_entry]

/-- The normalised weight at (b, s, k). -/
theorem prob_entry (x0 : FVec Ideal S4x2048x1024 .f32) (x1 : FVec Ideal S1024x64 .f32) (x2 : FVec Ideal S64 .f32)
    (x3 : FVec Ideal S1024x64 .f32) (x4 : FVec Ideal S64 .f32) (b : Fin 4) (s k : Fin 2048) :
    val_main_v29 (F := Ideal) x0 x1 x2 x3 x4 (ix3 b s k)
      = Ideal.div (Cert.Attn.weight (xrow x0 b) x1 x2 x3 x4 s k) (Cert.Attn.denom (xrow x0 b) x1 x2 x3 x4 s) := by
  rw [val_main_v29_apply, weight_entry, val_main_v28_apply, val_main_v27_apply, idx_den_ix3, denom_entry,
    Ideal.hostDivf_def]

/-- The result at (b, s, h). -/
theorem out_entry (x0 : FVec Ideal S4x2048x1024 .f32) (x1 : FVec Ideal S1024x64 .f32) (x2 : FVec Ideal S64 .f32)
    (x3 : FVec Ideal S1024x64 .f32) (x4 : FVec Ideal S64 .f32)
    (x5 : FVec Ideal S1024x64 .f32) (x6 : FVec Ideal S64 .f32) (b : Fin 4) (s : Fin 2048) (h : Fin 64) :
    val_main_v30 (F := Ideal) x0 x1 x2 x3 x4 x5 x6 (ix3 b s h)
      = Cert.Attn.attnRow (xrow x0 b) x1 x2 x3 x4 x5 x6 s h := by
  rw [val_main_v30_apply]
  unfold Cert.Attn.attnRow
  refine Finset.sum_congr rfl fun k _ => ?_
  rw [lidx_v30_ix3, ridx_v30_ix3, prob_entry, v_entry]

/-- The reference program's result is the specification `G` of its seven arguments. -/
theorem ref_eq (x0 : FVec Ideal S4x2048x1024 .f32) (x1 : FVec Ideal S1024x64 .f32) (x2 : FVec Ideal S64 .f32)
    (x3 : FVec Ideal S1024x64 .f32) (x4 : FVec Ideal S64 .f32) (x5 : FVec Ideal S1024x64 .f32)
    (x6 : FVec Ideal S64 .f32) :
    Cert.ReferenceIdeal.Read.val_main_v30 (F := Ideal) x0 x1 x2 x3 x4 x5 x6 = Cert.Attn.G x0 x1 x2 x3 x4 x5 x6 := by
  funext i
  obtain ⟨b, s, h, rfl⟩ : ∃ (b : Fin 4) (s : Fin 2048) (h : Fin 64), i = ix3 b s h := ⟨i 0, i 1, i 2, eq_ix3 i⟩
  rw [out_entry]
  rfl

end Cert.Attn.Ref

end
-- ==== Proof.lean ====
/-
  Causal single-head attention: a fused, tiled kernel against the plain formula, over the extended reals.

  For an input x[4, 2048, 1024] and three projections (Wq, bq), (Wk, bk), (Wv, bv) onto 64 columns, the result at batch
  element b, position s, column h is

      Σ_k softmax_k( (q[b,s,·] · k[b,k,·]) / 8  for k ≤ s, −∞ for k > s ) · v[b,k,h],

  with q = x·Wq + bq, k = x·Wk + bk, v = x·Wv + bv, the softmax being exp(score − row maximum) over its row sum
  (`Cert.Attn.G`, Proof/Spec.lean).

  The kernel runs a 4 × 4 grid: point (b, j) handles query rows 512 j … 512 j + 511 of batch element b.  At j = 0 it
  computes the key and value projections of the whole batch row into two scratch buffers which the later three points
  of the same batch element read back; every point projects its own 512 query rows, multiplies them by 1/8, contracts
  them with the cached keys, masks the entries above the diagonal with a large negative constant that the idealized
  program reads as −∞, normalises by the row maximum and the row sum and contracts with the cached values.  The
  reference computes all of q, k, v at once, divides the masked scores by sqrt 64 and applies the same softmax.

  The proof: what one run of the kernel body stores, as the body's arithmetic of the loaded buffers (Proof/Pieces.lean);
  that arithmetic entry by entry is the specification's row formula (Proof/TileValue.lean and the modules under it);
  by induction over the grid points the scratch buffers hold the key and value projections of the current batch
  element, each point's output block is a block of `G`, and the sixteen blocks tile the result
  (Proof/Blocks.lean); the reference's operations read entry by entry are `G` as well (Proof/RefIsSpec.lean and the
  modules under it).  The one algebraic step is that the factor 1/8 may be applied to every entry of q before the
  contraction over the 64 columns or to the contracted score after it: multiplication by a nonnegative finite
  constant goes through finite sums of extended reals whatever the summands, so no finiteness of the inputs is needed.
  The three frames are the generated ones; the reference's is its generated run with the result dropped.
-/
import proofs.«139778_j2791728742648_2_alg».proof.Defs
import proofs.«139778_j2791728742648_2_alg».proof.Proof.Gen.Kernel
import proofs.«139778_j2791728742648_2_alg».proof.Proof.Gen.Kernel.Skeleton
import proofs.«139778_j2791728742648_2_alg».proof.Proof.Gen.Kernel.Launch
import proofs.«139778_j2791728742648_2_alg».proof.Proof.Gen.Kernel.Points
import proofs.«139778_j2791728742648_2_alg».proof.Proof.Gen.Kernel.Frame
import proofs.«139778_j2791728742648_2_alg».proof.Proof.Gen.KernelIdeal
import proofs.«139778_j2791728742648_2_alg».proof.Proof.Gen.KernelIdeal.Skeleton
import proofs.«139778_j2791728742648_2_alg».proof.Proof.Gen.KernelIdeal.Launch
import proofs.«139778_j2791728742648_2_alg».proof.Proof.Gen.KernelIdeal.Points
import proofs.«139778_j2791728742648_2_alg».proof.Proof.Gen.KernelIdeal.Frame
import proofs.«139778_j2791728742648_2_alg».proof.Proof.Gen.KernelIdeal.Value
import proofs.«139778_j2791728742648_2_alg».proof.Proof.Gen.ReferenceIdeal
import proofs.«139778_j2791728742648_2_alg».proof.Proof.Gen.ReferenceIdeal.Run
import proofs.«139778_j2791728742648_2_alg».proof.Proof.Gen.ReferenceIdeal.Read
import proofs.«139778_j2791728742648_2_alg».proof.Proof.Gen.Pre_finite_inputs
import proofs.«139778_j2791728742648_2_alg».proof.Proof.Spec
import proofs.«139778_j2791728742648_2_alg».proof.Proof.Blocks
import proofs.«139778_j2791728742648_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The mask's fill constant is named −∞ by the certificate's table, and the idealized program's constant is that
    value. -/
theorem preserves : Cert.preserves_Kernel_KernelIdeal :=
  IdealRules.named_const.statement Cert.KernelIdeal.κ "neg_big" .f32 0xFF333332#32 ⊥ rfl

/-- Both runs end with the specification of the (agreeing) argument arrays. -/
theorem algebraic : Cert.algebraic_KernelIdeal_ReferenceIdeal := by
  intro m ρ m' ρ' _ hagree
  refine ⟨fun c => Cert.Attn.Blocks.Gv m c, Cert.Attn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Attn.Ref.ref_eq]
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
